-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S65536x512 .f32) (main_arg1 : FVec F S512 .f32) (main_arg2 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S65536x512 : Shape := ⟨2, ![65536, 512]⟩
abbrev S512 : Shape := ⟨1, ![512]⟩
abbrev S2048x512 : Shape := ⟨2, ![2048, 512]⟩
abbrev S1x512 : Shape := ⟨2, ![1, 512]⟩
abbrev S65536x512x1 : Shape := ⟨3, ![65536, 512, 1]⟩
abbrev S65536x512x2 : Shape := ⟨3, ![65536, 512, 2]⟩
abbrev S65536x1024 : Shape := ⟨2, ![65536, 1024]⟩

abbrev nBuf : Space → Nat
  | .hbm => 9
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S512, .f32⟩
  | .hbm, ⟨2, _⟩ => ⟨S512, .f32⟩
  | .hbm, ⟨3, _⟩ => ⟨S65536x512, .f32⟩
  | .hbm, ⟨4, _⟩ => ⟨S65536x512, .f32⟩
  | .hbm, ⟨5, _⟩ => ⟨S65536x512x1, .f32⟩
  | .hbm, ⟨6, _⟩ => ⟨S65536x512x1, .f32⟩
  | .hbm, ⟨7, _⟩ => ⟨S65536x512x2, .f32⟩
  | .hbm, ⟨8, _⟩ => ⟨S65536x1024, .f32⟩
  | .local _ .vmem, ⟨0, _⟩ => ⟨S2048x512, .f32⟩
  | .local _ .vmem, ⟨1, _⟩ => ⟨S2048x512, .f32⟩
  | .local _ .vmem, ⟨2, _⟩ => ⟨S512, .f32⟩
  | .local _ .vmem, ⟨3, _⟩ => ⟨S512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  bcast_S65536x512_S65536x512x1_0_1 : S65536x512.BroadcastsInDim S65536x512x1 (![0, 1] : Fin 2 → Fin S65536x512x1.rank)
  concatenates_S65536x512x1_S65536x512x1_S65536x512x2_d2 : Shape.Concatenates [S65536x512x1, S65536x512x1] S65536x512x2 2
  shapeCasts_S65536x512x2_S65536x1024 : S65536x512x2.ShapeCasts S65536x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S65536x512.size a
  hwx0_4 : ∀ i : grid0.Coords, EltTy.bits .f32 = 32 ∨ (Rect.block (s := S65536x512) S2048x512.size (cc0_transform_4 i) (hinb0_4 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S512 : Shape := ⟨1, ![512]⟩
abbrev S1x512 : Shape := ⟨2, ![1, 512]⟩
abbrev S_ : Shape := ⟨0, ![]⟩
abbrev S65536x512x1 : Shape := ⟨3, ![65536, 512, 1]⟩
abbrev S65536x512x2 : Shape := ⟨3, ![65536, 512, 2]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S65536x512, .f32⟩
  | .hbm, ⟨7, _⟩ => ⟨S65536x512, .i1⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S1x512, .f32⟩
  | .hbm, ⟨12, _⟩ => ⟨S65536x512, .f32⟩
  | .hbm, ⟨13, _⟩ => ⟨S65536x512, .i1⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S1x512, .f32⟩
  | .hbm, ⟨18, _⟩ => ⟨S65536x512, .f32⟩
  | .hbm, ⟨19, _⟩ => ⟨S65536x512, .i1⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S1x512, .f32⟩
  | .hbm, ⟨24, _⟩ => ⟨S65536x512, .f32⟩
  | .hbm, ⟨25, _⟩ => ⟨S65536x512, .i1⟩
  | .hbm, ⟨26, _⟩ => ⟨S_, .f32⟩
  | .hbm, ⟨27, _⟩ => ⟨S65536x512, .f32⟩
  | .hbm, ⟨28, _⟩ => ⟨S65536x512, .f32⟩
  | .hbm, ⟨29, _⟩ => ⟨S1x512, .f32⟩
  | .hbm, ⟨30, _⟩ => ⟨S65536x512, .f32⟩
  | .hbm, ⟨31, _⟩ => ⟨S65536x512, .i1⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S1x512, .f32⟩
  | .hbm, ⟨36, _⟩ => ⟨S65536x512, .f32⟩
  | .hbm, ⟨37, _⟩ => ⟨S65536x512, .i1⟩
  | .hbm, ⟨38, _⟩ => ⟨S_, .f32⟩
  | .hbm, ⟨39, _⟩ => ⟨S65536x512, .f32⟩
  | .hbm, ⟨40, _⟩ => ⟨S65536x512, .f32⟩
  | .hbm, ⟨41, _⟩ => ⟨S65536x512x1, .f32⟩
  | .hbm, ⟨42, _⟩ => ⟨S65536x512x1, .f32⟩
  | .hbm, ⟨43, _⟩ => ⟨S65536x512x2, .f32⟩
  | .hbm, ⟨44, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call3_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_call4_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_call5_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S65536x512_S65536x512x1_0_1 : S65536x512.BroadcastsInDim S65536x512x1 (![0, 1] : Fin 2 → Fin S65536x512x1.rank)
  concatenates_S65536x512x1_S65536x512x1_S65536x512x2_d2 : Shape.Concatenates [S65536x512x1, S65536x512x1] S65536x512x2 2
  shapeCasts_S65536x512x2_S65536x1024 : S65536x512x2.ShapeCasts S65536x1024

variable [Facts₀]

class Facts : Prop extends Facts₀ where

variable [Facts]
-- ==== Proof.Binning.lean ====
/-
  Per-column threshold binning, as mathematics.

  For a matrix `x` of 65536 rows and 512 columns and two column vectors `μ` (the means) and `σ` (the spreads), every
  entry `x r j` is sent through two chains of masked assignments, each step comparing the CURRENT value with a
  threshold of column `j` and overwriting it with a constant where the comparison holds:

    mean channel    v ↦ (v > μ j ? 1 : v) ↦ (v < μ j ? 0 : v)
    spread channel  v ↦ (v > a ? 1 : v) ↦ (v < b ? 1 : v) ↦ (v < a ? 0 : v) ↦ (v > b ? 0 : v),   a = σ j + μ j,  b = σ j − μ j.

  The order of the steps matters (a value set to 1 is compared again), so a chain is kept as the composition of its
  steps and never simplified: both programs apply the same steps in the same order, and nothing about the order on the
  extended reals is used. The result interleaves the two channels: entry `(r, 2 j)` is the mean channel at `(r, j)` and
  entry `(r, 2 j + 1)` the spread channel there — written here as the stack of the two matrices along a new last axis
  followed by the row-major re-reading of `[65536, 512, 2]` as `[65536, 1024]`.

  Everything is stated for any float semantics `F`; the certificate reads it at the extended reals.
-/
import Idealize.ShloMosaic.PureOps
import Idealize.ShloMosaic.Lib.ValueIdx

noncomputable section

namespace Cert.Binning

open Idealize.ShloMosaic Idealize.ShloMosaic.ValueIdx

variable {F : FTy → Type} [FloatOps F]

/-! ## One entry -/

/-- The constant 1.0, by its binary32 word. -/
def one : F .f32 := FloatOps.ofBits .f32 0x3F800000#32
/-- The constant 0.0, by its binary32 word. -/
def zero : F .f32 := FloatOps.ofBits .f32 0x00000000#32

/-- One masked assignment: where `v` compares with the threshold `θ` as `p` says, the constant `k`; elsewhere `v`. -/
def step (p : CmpFPredicate) (k : F .f32) (v θ : F .f32) : F .f32 :=
  Scalar.select (FloatOps.cmpf p v θ) k v

/-- The mean channel of one entry: above the mean becomes 1, then below the mean becomes 0. -/
def meanAt (x μ : F .f32) : F .f32 :=
  step .olt zero (step .ogt one x μ) μ

/-- The four masked assignments of the spread channel against an upper threshold `a` and a lower threshold `b`: above
    `a` becomes 1, then below `b` becomes 1, then below `a` becomes 0, then above `b` becomes 0. -/
def between (x a b : F .f32) : F .f32 :=
  step .ogt zero (step .olt zero (step .olt one (step .ogt one x a) b) a) b

/-- The spread channel of one entry: the four assignments at the thresholds `a = σ + μ` and `b = σ − μ`. -/
def spreadAt (x μ σ : F .f32) : F .f32 :=
  between x (FloatOps.addf σ μ) (FloatOps.subf σ μ)

/-! ## The whole matrices -/

/-- The data matrix's shape, -/
abbrev Rows : Shape := ⟨2, ![65536, 512]⟩
/-- a column vector's, -/
abbrev Cols : Shape := ⟨1, ![512]⟩
/-- a channel with a trailing unit axis, -/
abbrev Rows1 : Shape := ⟨3, ![65536, 512, 1]⟩
/-- the two channels stacked along that axis, -/
abbrev Rows2 : Shape := ⟨3, ![65536, 512, 2]⟩
/-- and the interleaved result's. -/
abbrev Wide : Shape := ⟨2, ![65536, 1024]⟩

/-- The column of an entry, as an index of a column vector. -/
def col (i : Rows.Idx) : Cols.Idx := ix1 (⟨(i 1).val, (i 1).isLt⟩ : Fin 512)

/-- The mean channel of the whole matrix: entry `(r, j)` from `x r j` and `μ j`. -/
def meanCh (x : Rows.Idx → F .f32) (μ : Cols.Idx → F .f32) : Rows.Idx → F .f32 :=
  fun i => meanAt (x i) (μ (col i))

/-- The spread channel of the whole matrix: entry `(r, j)` from `x r j`, `μ j` and `σ j`. -/
def spreadCh (x : Rows.Idx → F .f32) (μ σ : Cols.Idx → F .f32) : Rows.Idx → F .f32 :=
  fun i => spreadAt (x i) (μ (col i)) (σ (col i))

/-- The interleaving of two channels: each gets a trailing unit axis, the two are joined along it, and the
    `[65536, 512, 2]` array is re-read row-major as `[65536, 1024]`. Both programs end with exactly these three
    operations, so the certificate never looks inside: equal channels give equal interleavings. -/
def interleave (hb : Rows.BroadcastsInDim Rows1 (![0, 1] : Fin 2 → Fin Rows1.rank))
    (hc : Shape.Concatenates [Rows1, Rows1] Rows2 2) (hs : Rows2.ShapeCasts Wide)
    (a b : Rows.Idx → F .f32) : Wide.Idx → F .f32 :=
  shapeCast Wide (concatenate Rows2 2 [⟨Rows1, broadcastInDim Rows1 ![0, 1] hb a⟩, ⟨Rows1, broadcastInDim Rows1 ![0, 1] hb b⟩] hc) hs

end Cert.Binning

end
-- ==== Proof.KernelChannels.lean ====
/-
  The kernel's two output matrices are the two channels of `Binning`.

  The kernel walks the 65536 rows in 32 blocks of 2048 rows. At block `t` its body sees rows `2048 t … 2048 t + 2047` of
  `x` (all 512 columns) and the whole of `μ` and `σ`, which it first re-reads as one-row matrices and repeats down the
  2048 rows: at entry `(p, q)` of the block such a repeated vector is the vector at `q`. The body's comparisons and
  selections act entry by entry, so what it stores at `(p, q)` is `Binning.meanAt` (first output) and
  `Binning.spreadAt` (second output) of `x (2048 t + p) q`, `μ q`, `σ q`: block `t` of the channel. The 32 blocks
  tile the rows, so after the last block each output matrix is the whole channel.
-/
import proofs.«163569_j71347996721663_1_alg».proof.Proof.Gen.KernelIdeal.Frame
import proofs.«163569_j71347996721663_1_alg».proof.Proof.Binning
import Idealize.ShloMosaic.Lib.Pipeline.Value
import Idealize.ShloMosaic.Lib.ValueLayout

noncomputable section

namespace Cert.KernelIdeal.Channels

open Cert.KernelIdeal Cert.KernelIdeal.Gen Cert.Binning Idealize.ShloMosaic Idealize.ShloMosaic.TcCoe Idealize.SL.Sem
open Idealize.ShloMosaic.ValueIdx
open Idealize.ShloMosaic.Pipeline (Dat)

variable {F : FTy → Type} [FloatOps F]

/-! ## The body at one entry of a block -/

/-- A 512-vector re-read as a one-row matrix and repeated down 2048 rows is, at `(p, q)`, the vector at `q`. -/
theorem row_at (v : FVec F S512 .f32) (p : Fin 2048) (q : Fin 512) :
    broadcastTo S2048x512 (shapeCast S1x512 v shapeCasts_S512_S1x512) broadcasts_S1x512_S2048x512 (ix2 p q) = v (ix1 q) :=
  (broadcastTo_1b_ab_apply _ _ p q).trans (shapeCast_a_1a_apply v _ 0 q)

/-- The first store's value, entry by entry: the mean chain of the loaded entry and the repeated mean vector. -/
theorem pay1_eq (x0 : Vec F S2048x512 .f32) (x1 : Vec F S512 .f32) :
    k0_pay1 x0 x1 = fun j => meanAt (x0 j)
      (broadcastTo S2048x512 (shapeCast S1x512 x1 shapeCasts_S512_S1x512) broadcasts_S1x512_S2048x512 j) := rfl

/-- The second store's value, entry by entry: the four assignments against the repeated `σ + μ` and `σ − μ`. -/
theorem pay2_eq (x0 : Vec F S2048x512 .f32) (x1 x2 : Vec F S512 .f32) :
    k0_pay2 x0 x1 x2 = fun j => between (x0 j)
      (broadcastTo S2048x512 (shapeCast S1x512 (addf x2 x1) shapeCasts_S512_S1x512) broadcasts_S1x512_S2048x512 j)
      (broadcastTo S2048x512 (shapeCast S1x512 (subf x2 x1) shapeCasts_S512_S1x512) broadcasts_S1x512_S2048x512 j) := rfl

/-- At `(p, q)` of a block the first store holds the mean chain of `x (p, q)` and `μ q`. -/
theorem pay1_at (x0 : Vec F S2048x512 .f32) (x1 : Vec F S512 .f32) (p : Fin 2048) (q : Fin 512) :
    k0_pay1 x0 x1 (ix2 p q) = meanAt (x0 (ix2 p q)) (x1 (ix1 q)) :=
  (congrFun (pay1_eq x0 x1) (ix2 p q)).trans (congrArg (meanAt (x0 (ix2 p q))) (row_at x1 p q))

/-- At `(p, q)` of a block the second store holds the spread chain of `x (p, q)`, `μ q` and `σ q`. -/
theorem pay2_at (x0 : Vec F S2048x512 .f32) (x1 x2 : Vec F S512 .f32) (p : Fin 2048) (q : Fin 512) :
    k0_pay2 x0 x1 x2 (ix2 p q) = spreadAt (x0 (ix2 p q)) (x1 (ix1 q)) (x2 (ix1 q)) :=
  (congrFun (pay2_eq x0 x1 x2) (ix2 p q)).trans
    (congrArg₂ (between (x0 (ix2 p q))) (row_at (addf x2 x1) p q) (row_at (subf x2 x1) p q))

/-- The same at any index of the block, the column read off the index. -/
theorem pay1_block (x0 : Vec F S2048x512 .f32) (x1 : Vec F S512 .f32) (j : S2048x512.Idx) :
    k0_pay1 x0 x1 j = meanAt (x0 j) (x1 (ix1 (⟨(j 1).val, (j 1).isLt⟩ : Fin 512))) := by
  obtain ⟨p, q, rfl⟩ : ∃ (p : Fin 2048) (q : Fin 512), j = ix2 p q := ⟨j 0, j 1, eq_ix2 j⟩
  exact pay1_at x0 x1 p q

theorem pay2_block (x0 : Vec F S2048x512 .f32) (x1 x2 : Vec F S512 .f32) (j : S2048x512.Idx) :
    k0_pay2 x0 x1 x2 j = spreadAt (x0 j) (x1 (ix1 (⟨(j 1).val, (j 1).isLt⟩ : Fin 512)))
      (x2 (ix1 (⟨(j 1).val, (j 1).isLt⟩ : Fin 512))) := by
  obtain ⟨p, q, rfl⟩ : ∃ (p : Fin 2048) (q : Fin 512), j = ix2 p q := ⟨j 0, j 1, eq_ix2 j⟩
  exact pay2_at x0 x1 x2 p q

/-! ## From the blocks to the matrices -/

variable (m : (ℓ : Loc nD τ sig) → Buf (Elt F) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- Where the blocks sit, at every one of the 32 points: the block of `x` and both output blocks are the same rows and
    all columns; `μ` and `σ` are taken whole. -/
theorem where_blocks : ∀ t : Fin cfg0.N,
    win0_0.index t (0 : Fin 2) = win0_3.index t (0 : Fin 2) ∧ win0_0.index t (1 : Fin 2) = 0
    ∧ win0_4.index t (0 : Fin 2) = win0_3.index t (0 : Fin 2) ∧ win0_4.index t (1 : Fin 2) = 0
    ∧ win0_1.index t (0 : Fin 1) = 0 ∧ win0_2.index t (0 : Fin 1) = 0
    ∧ win0_3.index t (1 : Fin 2) = 0 :=
  (by decide +kernel : ∀ t : Fin grid0.N, _)

/-- Every one of the 32 row blocks is some point's, for both outputs. -/
theorem every_block : ∀ q0 : Fin 32, ∃ t : Fin cfg0.N, win0_3.index t = ![q0.val, 0] ∧ win0_4.index t = ![q0.val, 0] :=
  (by decide +kernel : ∀ q0 : Fin 32, ∃ t : Fin grid0.N, win0_3.index t = ![q0.val, 0] ∧ win0_4.index t = ![q0.val, 0])

/-- What point `t` writes back to the first output is block `t` of the mean channel of the arrays as launched. -/
theorem flushed3_eq (c : Dev nD) (t : Fin cfg0.N) :
    (dats m 0 c).flushed 3 t
      = ((cfg0.win 3).blk t).view.read (Elt F) (meanCh (V m c main_arg0) (V m c main_arg1)) := by
  show (cfg0.win 3).cut (grid0.coords t) ((dats m 0 c).after 3 t) = _
  rw [after0_3]
  unfold out0_3
  rw [View.canon_unit_zero zeros2]
  simp only [View.ld_unit_zero (S := S2048x512) zeros2, View.ld_unit_zero (S := S512) zeros1]
  obtain ⟨e0, e1, e2, e3, e4, e5, e6⟩ := where_blocks t
  funext j
  refine (pay1_block (iblk m c 0 t) (iblk m c 1 t) j).trans ?_
  show meanAt (V m c main_arg0 (((cfg0.win 0).blk t).view.emb j))
      (V m c main_arg1 (((cfg0.win 1).blk t).view.emb (ix1 (⟨(j 1).val, (j 1).isLt⟩ : Fin 512))))
    = meanAt (V m c main_arg0 (((cfg0.win 3).blk t).view.emb j))
      (V m c main_arg1 (col (((cfg0.win 3).blk t).view.emb j)))
  have h0 : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 512 + 1 * (j 1).val = win0_3.index t (1 : Fin 2) * 512 + 1 * (j 1).val; omega
  have h1 : ((cfg0.win 1).blk t).view.emb (ix1 (⟨(j 1).val, (j 1).isLt⟩ : Fin 512)) = col (((cfg0.win 3).blk t).view.emb j) := by
    funext a; apply Fin.ext
    match a with
    | ⟨0, _⟩ => show win0_1.index t (0 : Fin 1) * 512 + 1 * (j 1).val = win0_3.index t (1 : Fin 2) * 512 + 1 * (j 1).val; omega
  rw [h0, h1]

/-- What point `t` writes back to the second output is block `t` of the spread channel of the arrays as launched. -/
theorem flushed4_eq (c : Dev nD) (t : Fin cfg0.N) :
    (dats m 0 c).flushed 4 t
      = ((cfg0.win 4).blk t).view.read (Elt F) (spreadCh (V m c main_arg0) (V m c main_arg1) (V m c main_arg2)) := by
  show (cfg0.win 4).cut (grid0.coords t) ((dats m 0 c).after 4 t) = _
  rw [after0_4]
  unfold out0_4
  rw [View.canon_unit_zero zeros2]
  simp only [View.ld_unit_zero (S := S2048x512) zeros2, View.ld_unit_zero (S := S512) zeros1]
  obtain ⟨e0, e1, e2, e3, e4, e5, e6⟩ := where_blocks t
  funext j
  refine (pay2_block (iblk m c 0 t) (iblk m c 1 t) (iblk m c 2 t) j).trans ?_
  show spreadAt (V m c main_arg0 (((cfg0.win 0).blk t).view.emb j))
      (V m c main_arg1 (((cfg0.win 1).blk t).view.emb (ix1 (⟨(j 1).val, (j 1).isLt⟩ : Fin 512))))
      (V m c main_arg2 (((cfg0.win 2).blk t).view.emb (ix1 (⟨(j 1).val, (j 1).isLt⟩ : Fin 512))))
    = spreadAt (V m c main_arg0 (((cfg0.win 4).blk t).view.emb j))
      (V m c main_arg1 (col (((cfg0.win 4).blk t).view.emb j)))
      (V m c main_arg2 (col (((cfg0.win 4).blk t).view.emb j)))
  have h0 : ((cfg0.win 0).blk t).view.emb j = ((cfg0.win 4).blk t).view.emb j := by
    funext a; apply Fin.ext
    match a with
    | ⟨0, _⟩ => show win0_0.index t (0 : Fin 2) * 2048 + 1 * (j 0).val = win0_4.index t (0 : Fin 2) * 2048 + 1 * (j 0).val; omega
    | ⟨1, _⟩ => show win0_0.index t (1 : Fin 2) * 512 + 1 * (j 1).val = win0_4.index t (1 : Fin 2) * 512 + 1 * (j 1).val; omega
  have h1 : ((cfg0.win 1).blk t).view.emb (ix1 (⟨(j 1).val, (j 1).isLt⟩ : Fin 512)) = col (((cfg0.win 4).blk t).view.emb j) := by
    funext a; apply Fin.ext
    match a with
    | ⟨0, _⟩ => show win0_1.index t (0 : Fin 1) * 512 + 1 * (j 1).val = win0_4.index t (1 : Fin 2) * 512 + 1 * (j 1).val; omega
  have h2 : ((cfg0.win 2).blk t).view.emb (ix1 (⟨(j 1).val, (j 1).isLt⟩ : Fin 512)) = col (((cfg0.win 4).blk t).view.emb j) := by
    funext a; apply Fin.ext
    match a with
    | ⟨0, _⟩ => show win0_2.index t (0 : Fin 1) * 512 + 1 * (j 1).val = win0_4.index t (1 : Fin 2) * 512 + 1 * (j 1).val; omega
  rw [h0, h1, h2]

/-- An entry of the first output matrix is in point `t`'s block iff each coordinate is in the block's range. -/
theorem mem_blk3 (t : Fin cfg0.N) (i : S65536x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v0_0).slice (win0_3.rect t)).set ↔ _
  rw [View.set_slice_whole, Rect.mem_set_unit]
  exact Iff.rfl

/-- The same for the second output matrix. -/
theorem mem_blk4 (t : Fin cfg0.N) (i : S65536x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v0_1).slice (win0_4.rect t)).set ↔ _
  rw [View.set_slice_whole, Rect.mem_set_unit]
  exact Iff.rfl

/-- The 32 blocks of 2048 rows tile the 65536 rows: row `r` is in block `r / 2048`. -/
theorem cover3 (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht, -⟩ := every_block ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

theorem cover4 (i : S65536x512.Idx) :
    ∃ t : Fin cfg0.N, (cfg0.win 4).flush t = true ∧ i ∈ ((cfg0.win 4).blk t).view.set := by
  have hi0 : (i 0).val < 65536 := (i 0).isLt
  have hi1 : (i 1).val < 512 := (i 1).isLt
  obtain ⟨t, -, ht⟩ := every_block ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- After the last block the first output matrix is the mean channel of the arguments. -/
theorem mean_final (c : Dev nD) :
    (dats m 0 c).arrAt 3 cfg0.N
      = meanCh (m ((c : Thread nD τ).loc main_arg0)) (m ((c : Thread nD τ).loc main_arg1)) :=
  (dats m 0 c).arrAt_eq_of_cover 3 _ (fun t _ => flushed3_eq m c t) cover3

/-- After the last block the second output matrix is the spread channel of the arguments. -/
theorem spread_final (c : Dev nD) :
    (dats m 0 c).arrAt 4 cfg0.N
      = spreadCh (m ((c : Thread nD τ).loc main_arg0)) (m ((c : Thread nD τ).loc main_arg1))
          (m ((c : Thread nD τ).loc main_arg2)) :=
  (dats m 0 c).arrAt_eq_of_cover 4 _ (fun t _ => flushed4_eq m c t) cover4

end Cert.KernelIdeal.Channels

end
-- ==== Proof.KernelRun.lean ====
/-
  The kernel program's run: its result is the interleaving of the two channels of its arguments.

  After the 32 blocks the two output matrices hold the mean channel and the spread channel (`KernelChannels`). The three
  lines that follow — a trailing unit axis on each, the join along it, the row-major re-reading as `[65536, 1024]` —
  read those two matrices and nothing else, so the result buffer ends at `Binning.interleave` of the two channels.
-/
import proofs.«163569_j71347996721663_1_alg».proof.Proof.KernelChannels
import Idealize.ShloMosaic.Lib.StableHlo.Run

noncomputable section

namespace Cert.KernelIdeal.Channels

open Cert.KernelIdeal Cert.KernelIdeal.Gen Cert.Binning Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The result buffer is none of the pipeline's five arrays, and it outlives the kernel. -/
theorem result_rest : main_v4 ∈ Pipeline.restRefs sig (cfgs 0).spec :=
  Pipeline.mem_restRefs_of main_v4 rfl (by decide)

/-- What the three lines after the kernel leave in the result buffer. -/
theorem tail_eq (c : Dev nD) :
    Pipeline.afterTail₀ cfgs (dats m) 0 (V0 m) [hostOps1] c main_v4
      = interleave bcast_S65536x512_S65536x512x1_0_1 concatenates_S65536x512x1_S65536x512x1_S65536x512x2_d2
          shapeCasts_S65536x512x2_S65536x1024
          (meanCh (m ((c : Thread nD τ).loc main_arg0)) (m ((c : Thread nD τ).loc main_arg1)))
          (spreadCh (m ((c : Thread nD τ).loc main_arg0)) (m ((c : Thread nD τ).loc main_arg1))
            (m ((c : Thread nD τ).loc main_arg2))) := by
  unfold Pipeline.afterTail₀
  show StableHlo.after hostOps1 _ (Proc.devRef .tc main_v4) = _
  after_results
  have h3 : Pipeline.withArrays (cfgs 0).spec c (V0 m c) (fun w => (dats m 0 c).arrAt w (cfgs 0).N)
      (Proc.devRef .tc main_v0_0)
        = meanCh (m ((c : Thread nD τ).loc main_arg0)) (m ((c : Thread nD τ).loc main_arg1)) :=
    (Pipeline.withArrays_arr spec0 launch0.win.arr_inj c _ _ 3).trans (mean_final m c)
  have h4 : Pipeline.withArrays (cfgs 0).spec c (V0 m c) (fun w => (dats m 0 c).arrAt w (cfgs 0).N)
      (Proc.devRef .tc main_v0_1)
        = spreadCh (m ((c : Thread nD τ).loc main_arg0)) (m ((c : Thread nD τ).loc main_arg1))
            (m ((c : Thread nD τ).loc main_arg2)) :=
    (Pipeline.withArrays_arr spec0 launch0.win.arr_inj c _ _ 4).trans (spread_final m c)
  rw [h3, h4]
  rfl

/-- Every weakly fair execution of the kernel program terminates with the result buffer at the interleaving of the two
    channels of the arguments, and the arguments as launched. -/
theorem run : θ_run defs (onTc (τ := τ) (main (F := F))) ⟨m, fun _ => 0, ρ⟩ fun r => ∀ c : Dev nD,
      r.2.mem ((c : Thread nD τ).loc main_v4)
        = interleave bcast_S65536x512_S65536x512x1_0_1 concatenates_S65536x512x1_S65536x512x1_S65536x512x2_d2
            shapeCasts_S65536x512x2_S65536x1024
            (meanCh (m ((c : Thread nD τ).loc main_arg0)) (m ((c : Thread nD τ).loc main_arg1)))
            (spreadCh (m ((c : Thread nD τ).loc main_arg0)) (m ((c : Thread nD τ).loc main_arg1))
              (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v4 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Channels

end
-- ==== Proof.RefChannels.lean ====
/-
  The reference program computes the two channels of `Binning` and interleaves them.

  Its run is read one operation at a time: a threshold vector is first given a leading unit axis and then repeated down
  the 65536 rows, so at entry `(r, j)` it reads the vector at `j`; a constant is repeated over every entry; a comparison
  and a selection act entry by entry. Composing these readings along the program gives, at every entry, exactly the
  chain of masked assignments of `Binning.meanAt` (for the first stacked operand) and `Binning.spreadAt` (for the second).
-/
import proofs.«163569_j71347996721663_1_alg».proof.Proof.Gen.ReferenceIdeal.Read
import proofs.«163569_j71347996721663_1_alg».proof.Proof.Binning

noncomputable section

namespace Cert.ReferenceIdeal.RefValue

open Cert.ReferenceIdeal Cert.ReferenceIdeal.Gen Cert.ReferenceIdeal.Read Cert.Binning Idealize.ShloMosaic Idealize.ShloMosaic.ValueIdx

variable {F : FTy → Type} [FloatOps F]

/-! ## A threshold vector repeated down the rows reads, at an entry, the vector at the entry's column -/

theorem col_v3 (i : S65536x512.Idx) : idx_main_v2 (idx_main_v3 i) = col i := by
  funext a; match a with | ⟨0, _⟩ => rfl
theorem col_v7 (i : S65536x512.Idx) : idx_main_v6 (idx_main_v7 i) = col i := by
  funext a; match a with | ⟨0, _⟩ => rfl
theorem col_v11 (i : S65536x512.Idx) : idx_main_v10 (idx_main_v11 i) = col i := by
  funext a; match a with | ⟨0, _⟩ => rfl
theorem col_v15 (i : S65536x512.Idx) : idx_main_v14 (idx_main_v15 i) = col i := by
  funext a; match a with | ⟨0, _⟩ => rfl
theorem col_v19 (i : S65536x512.Idx) : idx_main_v18 (idx_main_v19 i) = col i := by
  funext a; match a with | ⟨0, _⟩ => rfl
theorem col_v23 (i : S65536x512.Idx) : idx_main_v22 (idx_main_v23 i) = col i := by
  funext a; match a with | ⟨0, _⟩ => rfl

/-! ## The two stacked operands are the two channels -/

/-- The first stacked operand: at every entry, above the mean becomes 1 and then below the mean becomes 0. -/
theorem mean_eq (x0 : (⟨S65536x512, .f32⟩ : BufTy).Contents (Elt F)) (x1 : (⟨S512, .f32⟩ : BufTy).Contents (Elt F)) :
    val_main_v9 (F := F) x0 x1 = meanCh x0 x1 := by
  funext i
  simp only [val_main_v9_apply, val_main_v8_apply, val_main_v7_apply, val_main_v6_apply, val_main_v5_apply,
    val_main_v4_apply, val_main_v3_apply, val_main_v2_apply, val_main_call1_v0_apply, val_main_cst_0_apply,
    val_main_call0_v0_apply, val_main_cst_apply, col_v3, col_v7]
  rfl

/-- The second stacked operand: at every entry the four masked assignments against `σ + μ` and `σ − μ` of the column. -/
theorem spread_eq (x0 : (⟨S65536x512, .f32⟩ : BufTy).Contents (Elt F)) (x1 x2 : (⟨S512, .f32⟩ : BufTy).Contents (Elt F)) :
    val_main_v25 (F := F) x0 x1 x2 = spreadCh x0 x1 x2 := by
  funext i
  simp only [val_main_v25_apply, val_main_v24_apply, val_main_v23_apply, val_main_v22_apply, val_main_v21_apply,
    val_main_v20_apply, val_main_v19_apply, val_main_v18_apply, val_main_v17_apply, val_main_v16_apply,
    val_main_v15_apply, val_main_v14_apply, val_main_v13_apply, val_main_v12_apply, val_main_v11_apply,
    val_main_v10_apply, val_main_v1_apply, val_main_v0_apply,
    val_main_call5_v0_apply, val_main_cst_4_apply, val_main_call4_v0_apply, val_main_cst_3_apply,
    val_main_call3_v0_apply, val_main_cst_2_apply, val_main_call2_v0_apply, val_main_cst_1_apply,
    col_v11, col_v15, col_v19, col_v23]
  rfl

/-! ## The result -/

/-- The reference's result is the interleaving of the two channels of its arguments. -/
theorem result_eq (x0 : (⟨S65536x512, .f32⟩ : BufTy).Contents (Elt F)) (x1 x2 : (⟨S512, .f32⟩ : BufTy).Contents (Elt F)) :
    val_main_v29 (F := F) x0 x1 x2
      = interleave bcast_S65536x512_S65536x512x1_0_1 concatenates_S65536x512x1_S65536x512x1_S65536x512x2_d2
          shapeCasts_S65536x512x2_S65536x1024 (meanCh x0 x1) (spreadCh x0 x1 x2) := by
  rw [← mean_eq, ← spread_eq]
  unfold val_main_v29 val_main_v28 val_main_v27 val_main_v26 interleave
  rfl

end Cert.ReferenceIdeal.RefValue

end
-- ==== Proof.lean ====
/-
  Per-column threshold binning: the tiled kernel and the whole-array reference compute the same interleaved matrix.

  Both programs send every entry `x r j` through the same two chains of masked assignments against thresholds of
  column `j` (`Binning.meanAt`: above `μ j` becomes 1, then below `μ j` becomes 0; `Binning.spreadAt`: above
  `σ j + μ j` becomes 1, below `σ j − μ j` becomes 1, below `σ j + μ j` becomes 0, above `σ j − μ j` becomes 0), with the
  same two constants, and both interleave the two resulting matrices column by column in the same way. The kernel does
  it 2048 rows at a time, with `μ` and `σ` repeated down the rows of a block; the reference on the whole matrix, with
  `μ` and `σ` repeated down all 65536 rows. Since the steps are the same operations applied in the same order, the two
  results agree on all extended reals: no law of arithmetic is used, and the finiteness of the inputs is never opened.

  `KernelChannels` shows that the kernel's two output matrices are the two channels (block `t` holds rows
  `2048 t …`, and the 32 blocks tile the rows), `KernelRun` that its result buffer is their interleaving,
  `RefChannels` the same of the reference's result. The kernel's idealization rewrote nothing, so there is nothing to
  preserve.
-/
import proofs.«163569_j71347996721663_1_alg».proof.Defs
import proofs.«163569_j71347996721663_1_alg».proof.Proof.Gen.Kernel
import proofs.«163569_j71347996721663_1_alg».proof.Proof.Gen.Kernel.Skeleton
import proofs.«163569_j71347996721663_1_alg».proof.Proof.Gen.Kernel.Launch
import proofs.«163569_j71347996721663_1_alg».proof.Proof.Gen.Kernel.Points
import proofs.«163569_j71347996721663_1_alg».proof.Proof.Gen.Kernel.Frame
import proofs.«163569_j71347996721663_1_alg».proof.Proof.Gen.KernelIdeal
import proofs.«163569_j71347996721663_1_alg».proof.Proof.Gen.KernelIdeal.Skeleton
import proofs.«163569_j71347996721663_1_alg».proof.Proof.Gen.KernelIdeal.Launch
import proofs.«163569_j71347996721663_1_alg».proof.Proof.Gen.KernelIdeal.Points
import proofs.«163569_j71347996721663_1_alg».proof.Proof.Gen.KernelIdeal.Frame
import proofs.«163569_j71347996721663_1_alg».proof.Proof.Gen.ReferenceIdeal
import proofs.«163569_j71347996721663_1_alg».proof.Proof.Gen.Pre_finite_inputs
import proofs.«163569_j71347996721663_1_alg».proof.Proof.Gen.ReferenceIdeal.Run
import proofs.«163569_j71347996721663_1_alg».proof.Proof.Gen.ReferenceIdeal.Read
import proofs.«163569_j71347996721663_1_alg».proof.Proof.KernelRun
import proofs.«163569_j71347996721663_1_alg».proof.Proof.RefChannels
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, both programs end with the interleaving of the mean channel and the spread channel of
    those arguments. -/
theorem algebraic : Cert.algebraic_KernelIdeal_ReferenceIdeal := by
  intro m ρ m' ρ' _ hagree
  refine ⟨_, Cert.KernelIdeal.Channels.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
